-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩
abbrev S8x256x16384 : Shape := ⟨3, ![8, 256, 16384]⟩
abbrev S8x256 : Shape := ⟨2, ![8, 256]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  shapeCasts_S8x256x128x128_S8x256x16384 : S8x256x128x128.ShapeCasts S8x256x16384
  reducesTo_S8x256x16384_S8x256_d2 : S8x256x16384.ReducesTo [2] S8x256
  bcast_S_S8x256 : S_.BroadcastsInDim S8x256 (![] : Fin 0 → Fin S8x256.rank)
  reducesTo_S8x256_S_d0_1 : S8x256.ReducesTo [0, 1] S_

variable [Facts]

def fn_part1 {F : FTy → Type} [FloatOps F] (main_v15 : IVec S_ 1) (main_v16 : FVec F S8x256x16384 .f32) : IVec S_ 1 :=
  let main_v17 : FVec F S8x256x16384 .f32 := mulf main_v16 main_v16
  let main_cst_5 : FVec F S_ .f32 := constant S_ .f32 0x00000000#32
  let main_v18 : FVec F S8x256 .f32 := (fun x v => Host.reduceAdd x v reducesTo_S8x256x16384_S8x256_d2 h_S_) main_v17 main_cst_5
  let main_cst_6 : FVec F S_ .f32 := constant S_ .f32 0x00000000#32
  let main_v19 : FVec F S8x256 .f32 := broadcastInDim S8x256 ![] bcast_S_S8x256 main_cst_6
  let main_v20 : IVec S8x256 1 := cmpf .ogt main_v18 main_v19
  let main_c_7 : IVec S_ 1 := constantI S_ 1 1#1
  let main_v21 : IVec S_ 1 := (fun x v => Host.reduce IntOp.andi x v reducesTo_S8x256_S_d0_1 h_S_) main_v20 main_c_7
  let main_v22 : IVec S_ 1 := andi main_v15 main_v21
  main_v22

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  let main_v9 : FVec F S8x256x16384 .f32 := shapeCast S8x256x16384 main_arg0 shapeCasts_S8x256x128x128_S8x256x16384
  let main_v10 : FVec F S8x256x16384 .f32 := mulf main_v9 main_v9
  let main_cst_2 : FVec F S_ .f32 := constant S_ .f32 0x00000000#32
  let main_v11 : FVec F S8x256 .f32 := (fun x v => Host.reduceAdd x v reducesTo_S8x256x16384_S8x256_d2 h_S_) main_v10 main_cst_2
  let main_cst_3 : FVec F S_ .f32 := constant S_ .f32 0x00000000#32
  let main_v12 : FVec F S8x256 .f32 := broadcastInDim S8x256 ![] bcast_S_S8x256 main_cst_3
  let main_v13 : IVec S8x256 1 := cmpf .ogt main_v11 main_v12
  let main_c_4 : IVec S_ 1 := constantI S_ 1 1#1
  let main_v14 : IVec S_ 1 := (fun x v => Host.reduce IntOp.andi x v reducesTo_S8x256_S_d0_1 h_S_) main_v13 main_c_4
  let main_v15 : IVec S_ 1 := andi main_v8 main_v14
  let main_v16 : FVec F S8x256x16384 .f32 := shapeCast S8x256x16384 main_arg1 shapeCasts_S8x256x128x128_S8x256x16384
  fn_part1 (F := F) main_v15 main_v16
-- ==== Kernel.lean ====
abbrev S8x256x128x128 : Shape := ⟨4, ![8, 256, 128, 128]⟩
abbrev S8x256x16384 : Shape := ⟨3, ![8, 256, 16384]⟩
abbrev S256x8 : Shape := ⟨2, ![256, 8]⟩
abbrev S8x16x16384 : Shape := ⟨3, ![8, 16, 16384]⟩
abbrev S16x8 : Shape := ⟨2, ![16, 8]⟩
abbrev S8x16 : Shape := ⟨2, ![8, 16]⟩
abbrev S8x16x2048 : Shape := ⟨3, ![8, 16, 2048]⟩
abbrev S8x256 : Shape := ⟨2, ![8, 256]⟩
abbrev S_ : Shape := ⟨0, ![]⟩
abbrev S8 : Shape := ⟨1, ![8]⟩

abbrev nBuf : Space → Nat
  | .hbm => 12
  | .vmem => 6
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x256x16384, .f32⟩
  | .hbm, ⟨3, _⟩ => ⟨S8x256x16384, .f32⟩
  | .hbm, ⟨4, _⟩ => ⟨S256x8, .f32⟩
  | .hbm, ⟨5, _⟩ => ⟨S8x256, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8x16x16384, .f32⟩
  | .local _ .vmem, ⟨1, _⟩ => ⟨S8x16x16384, .f32⟩
  | .local _ .vmem, ⟨2, _⟩ => ⟨S8x16x16384, .f32⟩
  | .local _ .vmem, ⟨3, _⟩ => ⟨S8x16x16384, .f32⟩
  | .local _ .vmem, ⟨4, _⟩ => ⟨S16x8, .f32⟩
  | .local _ .vmem, ⟨5, _⟩ => ⟨S16x8, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x128x128_S8x256x16384 : S8x256x128x128.ShapeCasts S8x256x16384
  inb_S8x16x16384_S8x16x2048_0_0_0 : ∀ a, (![0, 0, 0] : Fin 3 → Nat) a + S8x16x2048.size a ≤ S8x16x16384.size a
  h_S8x16x2048 : 0 < S8x16x2048.numel
  shapeCasts_S8x16x2048_S8x16x2048 : S8x16x2048.ShapeCasts S8x16x2048
  reduces_S8x16x2048_S8x16 : S8x16x2048.Reduces [2] S8x16
  inb_S8x16x16384_S8x16x2048_0_0_2048 : ∀ a, (![0, 0, 2048] : Fin 3 → Nat) a + S8x16x2048.size a ≤ S8x16x16384.size a
  inb_S8x16x16384_S8x16x2048_0_0_4096 : ∀ a, (![0, 0, 4096] : Fin 3 → Nat) a + S8x16x2048.size a ≤ S8x16x16384.size a
  inb_S8x16x16384_S8x16x2048_0_0_6144 : ∀ a, (![0, 0, 6144] : Fin 3 → Nat) a + S8x16x2048.size a ≤ S8x16x16384.size a
  inb_S8x16x16384_S8x16x2048_0_0_8192 : ∀ a, (![0, 0, 8192] : Fin 3 → Nat) a + S8x16x2048.size a ≤ S8x16x16384.size a
  inb_S8x16x16384_S8x16x2048_0_0_10240 : ∀ a, (![0, 0, 10240] : Fin 3 → Nat) a + S8x16x2048.size a ≤ S8x16x16384.size a
  inb_S8x16x16384_S8x16x2048_0_0_12288 : ∀ a, (![0, 0, 12288] : Fin 3 → Nat) a + S8x16x2048.size a ≤ S8x16x16384.size a
  inb_S8x16x16384_S8x16x2048_0_0_14336 : ∀ a, (![0, 0, 14336] : Fin 3 → Nat) a + S8x16x2048.size a ≤ S8x16x16384.size a
  transposes_S8x16_p1_0_S16x8 : S8x16.Transposes [1, 0] S16x8
  inb_S16x8_S16x8_0_0 : ∀ a, (![0, 0] : Fin 2 → Nat) a + S16x8.size a ≤ S16x8.size a
  h_S16x8 : 0 < S16x8.numel
  transposes_S256x8_S8x256_1_0 : S256x8.Transposes [1, 0] S8x256
  reducesTo_S8x256_S8_d1 : S8x256.ReducesTo [1] S8
  h_S_ : 0 < S_.numel
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x16384.size a ≤ S8x256x16384.size a
  hwx0_0 : ∀ i : grid0.Coords, EltTy.bits .f32 = 32 ∨ (Rect.block (s := S8x256x16384) S8x16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x16384.size a ≤ S8x256x16384.size a
  hwx0_1 : ∀ i : grid0.Coords, EltTy.bits .f32 = 32 ∨ (Rect.block (s := S8x256x16384) S8x16x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S256x8.size a
  hwx0_2 : ∀ i : grid0.Coords, EltTy.bits .f32 = 32 ∨ (Rect.block (s := S256x8) S16x8.size (cc0_transform_2 i) (hinb0_2 i)).WholeWords (EltTy.packing .f32)

variable [Facts₀]

abbrev win0_0 : Pipeline.Window sig grid0 :=
  Pipeline.Window.ofSpec (Memref.whole main_v0) S8x16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x256x16384 : Shape := ⟨3, ![8, 256, 16384]⟩
abbrev S_ : Shape := ⟨0, ![]⟩
abbrev S8x256 : Shape := ⟨2, ![8, 256]⟩
abbrev S8x256x1 : Shape := ⟨3, ![8, 256, 1]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x256x16384, .f32⟩
  | .hbm, ⟨3, _⟩ => ⟨S8x256x16384, .f32⟩
  | .hbm, ⟨4, _⟩ => ⟨S8x256x16384, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S8x256x1, .f32⟩
  | .hbm, ⟨9, _⟩ => ⟨S8x256x16384, .f32⟩
  | .hbm, ⟨10, _⟩ => ⟨S8x256x16384, .f32⟩
  | .hbm, ⟨11, _⟩ => ⟨S8x256x16384, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S8x256x1, .f32⟩
  | .hbm, ⟨16, _⟩ => ⟨S8x256x16384, .f32⟩
  | .hbm, ⟨17, _⟩ => ⟨S8x256x16384, .f32⟩
  | .hbm, ⟨18, _⟩ => ⟨S8x256x16384, .f32⟩
  | .hbm, ⟨19, _⟩ => ⟨S_, .f32⟩
  | .hbm, ⟨20, _⟩ => ⟨S8x256, .f32⟩
  | .hbm, ⟨21, _⟩ => ⟨S_, .f32⟩
  | .hbm, ⟨22, _⟩ => ⟨S8x256, .f32⟩
  | .hbm, ⟨23, _⟩ => ⟨S8x256, .f32⟩
  | .hbm, ⟨24, _⟩ => ⟨S8x256, .f32⟩
  | .hbm, ⟨25, _⟩ => ⟨S_, .f32⟩
  | .hbm, ⟨26, _⟩ => ⟨S8x256, .f32⟩
  | .hbm, ⟨27, _⟩ => ⟨S8x256, .f32⟩
  | .hbm, ⟨28, _⟩ => ⟨S_, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8x256, .f32⟩
  | .hbm, ⟨34, _⟩ => ⟨S8x256, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  shapeCasts_S8x256x128x128_S8x256x16384 : S8x256x128x128.ShapeCasts S8x256x16384
  reducesTo_S8x256x16384_S8x256_d2 : S8x256x16384.ReducesTo [2] S8x256
  h_S_ : 0 < S_.numel
  bcast_S8x256_S8x256x1_0_1 : S8x256.BroadcastsInDim S8x256x1 (![0, 1] : Fin 2 → Fin S8x256x1.rank)
  bcast_S8x256x1_S8x256x16384_0_1_2 : S8x256x1.BroadcastsInDim S8x256x16384 (![0, 1, 2] : Fin 3 → Fin S8x256x16384.rank)
  bcast_S_S8x256 : S_.BroadcastsInDim S8x256 (![] : Fin 0 → Fin S8x256.rank)
  reducesTo_S8x256_S8_d1 : S8x256.ReducesTo [1] S8
  reducesTo_S8_S_d0 : S8.ReducesTo [0] S_

variable [Facts₀]

class Facts : Prop extends Facts₀ where

variable [Facts]
-- ==== Proof.MeanTail.lean ====
/-
  The last three host operations both programs share: from an [8, 256] array, the sum over the 256 channels of each
  batch, then the sum over the 8 batches, then the quotient by 8 — the mean over the batches of the per-batch totals.
  Named once, so that two results are compared by comparing the [8, 256] arrays that go in.
-/
import Idealize.ShloMosaic.Lib.StableHlo
import Idealize.ShloMosaic.PureOps
import Idealize.ShloMosaic.PureOps.Ideal

noncomputable section

namespace Cert.MeanTail

open Idealize.ShloMosaic

abbrev S8x256 : Shape := ⟨2, ![8, 256]⟩
abbrev S8 : Shape := ⟨1, ![8]⟩
abbrev S_ : Shape := ⟨0, ![]⟩

/-- The mean over the 8 batches of the totals over the 256 channels, as the host computes it: two sums started from the
    zero word and a quotient by the word for 8. -/
def mean (h1 : S8x256.ReducesTo [1] S8) (h0 : S8.ReducesTo [0] S_) (hS : 0 < S_.numel)
    (P : FVec Ideal S8x256 .f32) : FVec Ideal S_ .f32 :=
  Host.divf (F := Ideal)
    (Host.reduceAdd (F := Ideal)
      (Host.reduceAdd (F := Ideal) P (constant (F := Ideal) S_ .f32 0x00000000#32) h1 hS)
      (constant (F := Ideal) S_ .f32 0x00000000#32) h0 hS)
    (constant (F := Ideal) S_ .f32 0x41000000#32)

end Cert.MeanTail

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.Domain.lean ====
/-
  What the precondition says of the two argument arrays, read on the extended reals.

  The precondition is the conjunction of four tests: every entry of each array has absolute value below plus
  infinity, and, with each array laid out as [8, 256, 16384] (batch, channel, position), every (batch, channel) vector
  has a positive sum of squares. So every entry is a real number and every channel's energy is positive: the
  domain on which dividing a channel by its norm is an ordinary division.

  How the four tests are read back. A conjunction of one-bit words is 1 exactly when each word is 1, so each of the
  four tests is 1. Each test is an and-reduction over every axis of an array of one-bit words; such a reduction is 1
  only if the array is 1 at every index. At an index i the first kind of test says |x i| < +inf, which excludes the
  two infinities. At an index (b, c) the second kind says that 0, the broadcast zero word, is strictly below the
  host's sum over the last axis, which on the extended reals is 0 + the sum over k of x (b, c, k) * x (b, c, k).
-/
import proofs.«135004_j4492535792361_2_alg».proof.Pre_finite_inputs
import proofs.«135004_j4492535792361_2_alg».proof.Proof.LibReal
import Idealize.ShloMosaic.Lib.ReduceAll
import Idealize.ShloMosaic.Lib.ValueIdx
import Idealize.ShloMosaic.Lib.Pipeline.Value
import Idealize.ShloMosaic.PureOps.Ideal.Laws

noncomputable section

open scoped BigOperators

namespace Cert.Domain

open Idealize.ShloMosaic Idealize.ShloMosaic.ValueIdx Cert.LibReal Cert.Pre_finite_inputs

/-- The shape of rank 0 has exactly one index. -/
instance subsingleton_idx0 : Subsingleton S_.Idx := ⟨fun _ _ => funext fun d => d.elim0⟩

/-- A conjunction of four one-bit scalars that is 1 has all four conjuncts 1. -/
theorem and4 (a b c d : IVec S_ 1) (h : andi (andi (andi a b) c) d ix0 = 1#1) :
    a ix0 = 1#1 ∧ b ix0 = 1#1 ∧ c ix0 = 1#1 ∧ d ix0 = 1#1 := by
  have h1 : IntOp.andi (IntOp.andi (IntOp.andi (a ix0) (b ix0)) (c ix0)) (d ix0) = 1#1 := h
  obtain ⟨h2, hd⟩ := IntOp.andi_eq_one.1 h1
  obtain ⟨h3, hc⟩ := IntOp.andi_eq_one.1 h2
  obtain ⟨ha, hb⟩ := IntOp.andi_eq_one.1 h3
  exact ⟨ha, hb, hc, hd⟩

/-- A truth value whose one-bit word is 1 is true. -/
theorem of_ofBool_eq_one {b : Bool} (h : BitVec.ofBool b = 1#1) : b = true := by
  cases b
  · exact absurd h (by decide)
  · rfl

/-- The test "every |entry| < +inf" of a whole array, when it is 1, makes every entry a real number. -/
theorem real_of_test (x : FVec Ideal S8x256x128x128 .f32)
    (hb : S_.BroadcastsInDim S8x256x128x128 (![] : Fin 0 → Fin S8x256x128x128.rank))
    (hr : S8x256x128x128.ReducesTo [0, 1, 2, 3] S_) (hS : 0 < S_.numel)
    (h : Host.reduce IntOp.andi
        (cmpf .olt (Host.absf (F := Ideal) x)
          (broadcastInDim S8x256x128x128 ![] hb (constant (F := Ideal) S_ .f32 0x7F800000#32)))
        (constantI S_ 1 1#1) hr hS ix0 = 1#1)
    (i : S8x256x128x128.Idx) : IsReal (x i) :=
  entry_real x hb i (Host.reduce_andi_all _ _ hr hS ix0 h i)

/-- The test "every (batch, channel) sum of squares > 0" of an array laid out as [8, 256, 16384], when it is 1, makes
    every such sum positive: the host's sum over the last axis from the zero word is 0 + the sum over the positions,
    and the comparison with the broadcast zero word is the strict order of the extended reals. -/
theorem pos_of_test (X : FVec Ideal S8x256x16384 .f32)
    (hr2 : S8x256x16384.ReducesTo [2] S8x256) (hS : 0 < S_.numel)
    (hb : S_.BroadcastsInDim S8x256 (![] : Fin 0 → Fin S8x256.rank))
    (hr : S8x256.ReducesTo [0, 1] S_)
    (h : Host.reduce IntOp.andi
        (cmpf .ogt (Host.reduceAdd (F := Ideal) (mulf X X) (constant (F := Ideal) S_ .f32 0x00000000#32) hr2 hS)
          (broadcastInDim S8x256 ![] hb (constant (F := Ideal) S_ .f32 0x00000000#32)))
        (constantI S_ 1 1#1) hr hS ix0 = 1#1)
    (b : Fin 8) (c : Fin 256) : 0 < ∑ k : Fin 16384, X (ix3 b c k) * X (ix3 b c k) := by
  have ht := Host.reduce_andi_all _ _ hr hS ix0 h (ix2 b c)
  rw [cmpf_apply, Ideal.cmpf_def] at ht
  have hz : broadcastInDim S8x256 ![] hb (constant (F := Ideal) S_ .f32 0x00000000#32) (ix2 b c) = 0 := by
    rw [broadcastInDim_apply ![] hb _ (ix2 b c) ix0 fun ax => ax.elim0, constant_apply, Ideal.ofBits_zero_f32]
  have hs : Host.reduceAdd (F := Ideal) (mulf X X) (constant (F := Ideal) S_ .f32 0x00000000#32) hr2 hS (ix2 b c)
      = ∑ k : Fin 16384, X (ix3 b c k) * X (ix3 b c k) := by
    generalize hY : mulf X X = Y
    simp only [Host.reduceAdd, Ideal.hostReduceAdd_def]
    rw [Ideal.hostReduceAdd_single hr2 (by decide), constant_apply, Ideal.ofBits_zero_f32, zero_add]
    refine Finset.sum_congr rfl fun k _ => ?_
    subst hY
    rw [mulf_apply]
    have hi : (Shape.Reduces.lift (by decide : S8x256x16384.Reduces [2] S8x256) (ix2 b c) k) = ix3 b c k :=
      funext fun a => Fin.ext (by match a with | ⟨0, _⟩ => rfl | ⟨1, _⟩ => rfl | ⟨2, _⟩ => rfl)
    exact congrArg (fun i => X i * X i) hi
  rw [hz, hs] at ht
  exact of_decide_eq_true (of_ofBool_eq_one ht)

variable [Cert.Pre_finite_inputs.Facts]

/-- Under the precondition every entry of both arrays is a real number, and in the [8, 256, 16384] layout every
    (batch, channel) vector of either array has a positive sum of squares. -/
theorem of_pre (x0 x1 : FVec Ideal S8x256x128x128 .f32)
    (h : Cert.Pre_finite_inputs.fn (F := Ideal) x0 x1 = fun _ => 1#1)
    (hc : S8x256x128x128.ShapeCasts S8x256x16384) :
    (∀ i, IsReal (x0 i)) ∧ (∀ i, IsReal (x1 i))
    ∧ (∀ (b : Fin 8) (c : Fin 256), 0 < ∑ k : Fin 16384,
        shapeCast S8x256x16384 x0 hc (ix3 b c k) * shapeCast S8x256x16384 x0 hc (ix3 b c k))
    ∧ (∀ (b : Fin 8) (c : Fin 256), 0 < ∑ k : Fin 16384,
        shapeCast S8x256x16384 x1 hc (ix3 b c k) * shapeCast S8x256x16384 x1 hc (ix3 b c k)) := by
  have h0 : Cert.Pre_finite_inputs.fn (F := Ideal) x0 x1 ix0 = 1#1 := congrFun h ix0
  obtain ⟨ha, hb, hc', hd⟩ := and4 _ _ _ _ h0
  exact ⟨real_of_test x0 _ _ _ ha, real_of_test x1 _ _ _ hb,
    pos_of_test (shapeCast S8x256x16384 x0 hc) _ _ _ _ hc', pos_of_test (shapeCast S8x256x16384 x1 hc) _ _ _ _ hd⟩

end Cert.Domain

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.LibCosine.lean ====
/-
  The cosine of two real vectors, in two spellings, and the distance built on it.

  For vectors x, y over a finite index set write E(x) = sum of x_k^2 for the energy and <x, y> = sum of x_k y_k.
  * `cosProd`: <x, y> times the reciprocal square root of E(x) E(y).
  * `cosUnit`: the inner product of x / sqrt E(x) with y / sqrt E(y), every entry divided first.
  When every entry is a real number and both energies are positive the two are the same real number
  <x, y> / (sqrt E(x) sqrt E(y)), because sqrt (E(x) E(y)) = sqrt E(x) sqrt E(y) for nonnegative factors.
  (At a zero energy they differ on the extended reals: 0 times the reciprocal root of 0 is 0, while 0 / 0 is not.)
  * `gap v` = sqrt (max (2 - 2 v v) 0), the distance between the two rank-one projectors of unit vectors of cosine v.
  * Scaling by the single-precision word for 2^-14 is dividing by the word for 16384, on every extended real.
-/
import Idealize.ShloMosaic.PureOps.Ideal
import Idealize.ShloMosaic.PureOps.Ideal.Laws
import proofs.«135004_j4492535792361_2_alg».proof.Proof.LibReal

noncomputable section

open scoped BigOperators

namespace Cert.LibCosine

open Idealize.ShloMosaic Cert.LibReal

variable {ι : Type} [Fintype ι]

/-- The energy of a vector: the sum of the squares of its entries. -/
def energy (x : ι → EReal) : EReal := ∑ k, x k * x k

/-- The inner product of two vectors. -/
def inner (x y : ι → EReal) : EReal := ∑ k, x k * y k

/-- The cosine as the inner product times the reciprocal square root of the product of the energies. -/
def cosProd (x y : ι → EReal) : EReal := inner x y * Ideal.rsqrt (energy x * energy y)

/-- The cosine as the inner product of the two vectors, each entry divided by its vector's norm first. -/
def cosUnit (x y : ι → EReal) : EReal :=
  ∑ k, Ideal.div (x k) (Ideal.sqrt (energy x)) * Ideal.div (y k) (Ideal.sqrt (energy y))

/-- sqrt (max (2 - 2 v v) 0), the 2 and the 0 as single-precision words. -/
def gap (v : EReal) : EReal :=
  Ideal.sqrt (max (Ideal.ofBits .f32 0x40000000#32 - Ideal.ofBits .f32 0x40000000#32 * v * v) (Ideal.ofBits .f32 0x00000000#32))

/-- The energy of a vector of real numbers is the real sum of squares. -/
private theorem energy_coe (f : ι → ℝ) :
    energy (fun k => ((f k : ℝ) : EReal)) = ((∑ k, f k * f k : ℝ) : EReal) := by
  unfold energy
  rw [← sum_coe]
  exact Finset.sum_congr rfl fun k _ => (EReal.coe_mul _ _).symm

/-- The inner product of two vectors of real numbers is the real inner product. -/
private theorem inner_coe (f g : ι → ℝ) :
    inner (fun k => ((f k : ℝ) : EReal)) (fun k => ((g k : ℝ) : EReal)) = ((∑ k, f k * g k : ℝ) : EReal) := by
  unfold inner
  rw [← sum_coe]
  exact Finset.sum_congr rfl fun k _ => (EReal.coe_mul _ _).symm

/-- The two cosines agree for real vectors of positive energy. -/
theorem cosProd_eq_cosUnit (x y : ι → EReal) (hx : ∀ k, IsReal (x k)) (hy : ∀ k, IsReal (y k))
    (hxx : 0 < energy x) (hyy : 0 < energy y) : cosProd x y = cosUnit x y := by
  choose f hf using hx
  choose g hg using hy
  obtain rfl : x = fun k => ((f k : ℝ) : EReal) := funext hf
  obtain rfl : y = fun k => ((g k : ℝ) : EReal) := funext hg
  rw [energy_coe] at hxx hyy
  have hA : 0 < ∑ k, f k * f k := EReal.coe_pos.mp hxx
  have hB : 0 < ∑ k, g k * g k := EReal.coe_pos.mp hyy
  unfold cosProd cosUnit
  rw [energy_coe, energy_coe, inner_coe]
  generalize hAe : (∑ k, f k * f k) = A at hA
  generalize hBe : (∑ k, g k * g k) = B at hB
  have hsA : Real.sqrt A ≠ 0 := (Real.sqrt_pos.mpr hA).ne'
  have hsB : Real.sqrt B ≠ 0 := (Real.sqrt_pos.mpr hB).ne'
  rw [← EReal.coe_mul, Ideal.rsqrt_coe, if_neg (not_lt.mpr (mul_pos hA hB).le), if_neg (mul_pos hA hB).ne',
    Ideal.sqrt_coe, if_neg (not_lt.mpr hA.le), Ideal.sqrt_coe, if_neg (not_lt.mpr hB.le)]
  have hterm : ∀ k, Ideal.div ((f k : ℝ) : EReal) ((Real.sqrt A : ℝ) : EReal) * Ideal.div ((g k : ℝ) : EReal) ((Real.sqrt B : ℝ) : EReal)
      = ((f k * (1 / Real.sqrt A) * (g k * (1 / Real.sqrt B)) : ℝ) : EReal) := by
    intro k
    rw [Ideal.div_coe hsA, Ideal.div_coe hsB, ← EReal.coe_mul, ← EReal.coe_mul, ← EReal.coe_mul]
  rw [Finset.sum_congr rfl fun k _ => hterm k, sum_coe, ← EReal.coe_mul]
  congr 1
  rw [Real.sqrt_mul hA.le, Finset.sum_mul]
  refine Finset.sum_congr rfl fun k _ => ?_
  field_simp

/-- The single-precision word 0x38800000 is 2^-14 = 1 / 16384. -/
private theorem ofBits_inv_16384 : Ideal.ofBits .f32 0x38800000#32 = (((1 : ℝ) / 16384 : ℝ) : EReal) := by
  simp [Ideal.ofBits, Ideal.ieee]
  rw [← EReal.coe_mul]; congr 1; norm_num

/-- The single-precision word 0x46800000 is 2^14 = 16384. -/
private theorem ofBits_16384 : Ideal.ofBits .f32 0x46800000#32 = ((16384 : ℝ) : EReal) := by
  simp [Ideal.ofBits, Ideal.ieee]
  rw [← EReal.coe_mul]; congr 1; norm_num

/-- Scaling by 2^-14 is dividing by 16384. -/
theorem scale_eq_div (v : EReal) :
    v * Ideal.ofBits .f32 0x38800000#32 = Ideal.div v (Ideal.ofBits .f32 0x46800000#32) := by
  rw [ofBits_inv_16384, ofBits_16384, Ideal.div_coe (by norm_num : (16384 : ℝ) ≠ 0)]

end Cert.LibCosine

end
-- ==== Proof.Block.lean ====
/-
  One block of the kernel, read at an index.

  A block holds, for 8 batches and 16 channels, the 16384 positions of both inputs. The body walks the positions in
  8 chunks of 2048: per chunk it adds the chunk's sum of squares of the first input, of the second input, and of their
  products to three running totals that start at zero. So after the last chunk the totals are the two energies and the
  inner product of the whole (batch, channel) vectors — a sum over 8 consecutive tiles of 2048 positions is the sum over
  all 16384 — and the stored entry at (channel, batch) is the distance of the cosine "inner product times the
  reciprocal root of the product of the energies", scaled by 2^-14.
-/
import proofs.«135004_j4492535792361_2_alg».proof.Proof.Gen.KernelIdeal.Frame
import proofs.«135004_j4492535792361_2_alg».proof.Proof.LibTileSum
import proofs.«135004_j4492535792361_2_alg».proof.Proof.LibCosine
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.LibCosine

/-- Position `j` of chunk `n`: the `n`-th tile of 2048 consecutive positions. -/
def pos (n : Fin 8) (j : Fin 2048) : Fin 16384 :=
  ⟨n.val * 2048 + j.val, by have := n.isLt; have := j.isLt; omega⟩

/-- A chunk's load at (batch, channel, j) reads the block at (batch, channel, offset + j). -/
theorem ld_pos (x : Vec Ideal S8x16x16384 .f32) (o : Nat)
    (inb : ∀ a, (![0, 0, o] : Fin 3 → Nat) a + S8x16x2048.size a ≤ S8x16x16384.size a)
    (n : Fin 8) (ho : o = n.val * 2048) (b : Fin 8) (cl : Fin 16) (j : Fin 2048) :
    View.ld x (Rect.unit (s := S8x16x16384) ![0, 0, o] S8x16x2048.size inb) (ix3 b cl j) = x (ix3 b cl (pos n j)) := by
  subst ho
  show x _ = x _
  refine congrArg x (funext fun a => Fin.ext ?_)
  match a with
  | ⟨0, _⟩ => show 0 + 1 * b.val = b.val; omega
  | ⟨1, _⟩ => show 0 + 1 * cl.val = cl.val; omega
  | ⟨2, _⟩ => show n.val * 2048 + 1 * j.val = n.val * 2048 + j.val; omega

/-- The sum over one chunk of the products of two chunk vectors, at (batch, channel). -/
theorem chunk_sum (v w : FVec Ideal S8x16x2048 .f32) (b : Fin 8) (cl : Fin 16) :
    multiReduction .add [2] S8x16 (mulf v w) 0x00000000#32 reduces_S8x16x2048_S8x16 (.inl rfl) rfl (ix2 b cl)
      = ∑ j : Fin 2048, v (ix3 b cl j) * w (ix3 b cl j) := by
  refine (Ideal.multiReduction_add_single (mulf v w) 0x00000000#32 reduces_S8x16x2048_S8x16 (.inl rfl) rfl (ix2 b cl)).trans ?_
  refine Finset.sum_congr rfl fun j _ => ?_
  have e : reduces_S8x16x2048_S8x16.lift (ix2 b cl) j = ix3 b cl j :=
    funext fun a => Fin.ext (by match a with | ⟨0, _⟩ => rfl | ⟨1, _⟩ => rfl | ⟨2, _⟩ => rfl)
  rw [e]
  rfl

/-- One chunk's sum of products of the two blocks' chunk loads, at (batch, channel): the sum over the chunk's
    2048 positions. -/
theorem chunk_ld (x y : Vec Ideal S8x16x16384 .f32) (o : Nat)
    (inb : ∀ a, (![0, 0, o] : Fin 3 → Nat) a + S8x16x2048.size a ≤ S8x16x16384.size a)
    (n : Fin 8) (ho : o = n.val * 2048) (b : Fin 8) (cl : Fin 16) :
    multiReduction (F := Ideal) .add [2] S8x16
        (mulf (F := Ideal) (View.ld x (Rect.unit (s := S8x16x16384) ![0, 0, o] S8x16x2048.size inb) : FVec Ideal S8x16x2048 .f32)
              (View.ld y (Rect.unit (s := S8x16x16384) ![0, 0, o] S8x16x2048.size inb) : FVec Ideal S8x16x2048 .f32))
        0x00000000#32 reduces_S8x16x2048_S8x16 (.inl rfl) rfl (ix2 b cl)
      = ∑ j : Fin 2048, x (ix3 b cl (pos n j)) * y (ix3 b cl (pos n j)) := by
  refine (chunk_sum _ _ b cl).trans (Finset.sum_congr rfl fun j _ => ?_)
  rw [ld_pos x o inb n ho b cl j, ld_pos y o inb n ho b cl j]

/-- Eight running additions of chunk sums onto a zero start are the sum over all 16384 positions: the positions are
    8 consecutive tiles of 2048. -/
theorem eight_chunks (f : Fin 16384 → EReal) :
    Ideal.ofBits .f32 0x00000000#32 + (∑ j, f (pos 0 j)) + (∑ j, f (pos 1 j)) + (∑ j, f (pos 2 j)) + (∑ j, f (pos 3 j))
      + (∑ j, f (pos 4 j)) + (∑ j, f (pos 5 j)) + (∑ j, f (pos 6 j)) + (∑ j, f (pos 7 j)) = ∑ k, f k := by
  rw [Ideal.ofBits_zero_f32, zero_add]
  have h := TileSum.sum_tiles (T := 8) (B := 2048) (M := EReal) f
  rw [Fin.sum_univ_eight] at h
  exact h

/-- The square root and the reciprocal square root of a vector, at an index. -/
theorem sqrt_at {s : Shape} (v : FVec Ideal s .f32) (i : s.Idx) : Idealize.ShloMosaic.sqrt v i = Ideal.sqrt (v i) := rfl
theorem rsqrt_at {s : Shape} (v : FVec Ideal s .f32) (i : s.Idx) : Idealize.ShloMosaic.rsqrt v i = Ideal.rsqrt (v i) := rfl

/-- The first running total after the last chunk: the energy of the (batch, channel) vector of the first block. -/
theorem total_sq0 (x : Vec Ideal S8x16x16384 .f32) (b : Fin 8) (cl : Fin 16) :
    k0_pay25 (F := Ideal) (k0_pay15 (k0_pay6 (View.ld x r0_0) (View.ld x r0_1)) (k0_pay9 (View.ld x r0_2)) (View.ld x r0_3) (View.ld x r0_4))
        (View.ld x r0_5) (View.ld x r0_6) (View.ld x r0_7) (ix2 b cl)
      = energy (fun k : Fin 16384 => x (ix3 b cl k)) := by
  simp only [k0_pay25, k0_pay15, k0_pay6, k0_pay9, k0_pay2, k0_pay4, k0_pay11, k0_pay13, k0_pay18, k0_pay20, k0_pay23,
    shapeCast_self, addf_apply, broadcast_apply]
  rw [chunk_ld x x 0 inb_S8x16x16384_S8x16x2048_0_0_0 0 rfl b cl,
    chunk_ld x x 2048 inb_S8x16x16384_S8x16x2048_0_0_2048 1 rfl b cl,
    chunk_ld x x 4096 inb_S8x16x16384_S8x16x2048_0_0_4096 2 rfl b cl,
    chunk_ld x x 6144 inb_S8x16x16384_S8x16x2048_0_0_6144 3 rfl b cl,
    chunk_ld x x 8192 inb_S8x16x16384_S8x16x2048_0_0_8192 4 rfl b cl,
    chunk_ld x x 10240 inb_S8x16x16384_S8x16x2048_0_0_10240 5 rfl b cl,
    chunk_ld x x 12288 inb_S8x16x16384_S8x16x2048_0_0_12288 6 rfl b cl,
    chunk_ld x x 14336 inb_S8x16x16384_S8x16x2048_0_0_14336 7 rfl b cl]
  exact eight_chunks (fun k => x (ix3 b cl k) * x (ix3 b cl k))

/-- The second running total after the last chunk: the energy of the (batch, channel) vector of the second block. -/
theorem total_sq1 (y : Vec Ideal S8x16x16384 .f32) (b : Fin 8) (cl : Fin 16) :
    k0_pay26 (F := Ideal) (k0_pay16 (k0_pay7 (View.ld y r0_0) (View.ld y r0_1)) (View.ld y r0_2) (View.ld y r0_3) (View.ld y r0_4))
        (View.ld y r0_5) (View.ld y r0_6) (View.ld y r0_7) (ix2 b cl)
      = energy (fun k : Fin 16384 => y (ix3 b cl k)) := by
  simp only [k0_pay26, k0_pay16, k0_pay7, k0_pay3, k0_pay5, k0_pay10, k0_pay12, k0_pay14, k0_pay19, k0_pay21, k0_pay24,
    shapeCast_self, addf_apply, broadcast_apply]
  rw [chunk_ld y y 0 inb_S8x16x16384_S8x16x2048_0_0_0 0 rfl b cl,
    chunk_ld y y 2048 inb_S8x16x16384_S8x16x2048_0_0_2048 1 rfl b cl,
    chunk_ld y y 4096 inb_S8x16x16384_S8x16x2048_0_0_4096 2 rfl b cl,
    chunk_ld y y 6144 inb_S8x16x16384_S8x16x2048_0_0_6144 3 rfl b cl,
    chunk_ld y y 8192 inb_S8x16x16384_S8x16x2048_0_0_8192 4 rfl b cl,
    chunk_ld y y 10240 inb_S8x16x16384_S8x16x2048_0_0_10240 5 rfl b cl,
    chunk_ld y y 12288 inb_S8x16x16384_S8x16x2048_0_0_12288 6 rfl b cl,
    chunk_ld y y 14336 inb_S8x16x16384_S8x16x2048_0_0_14336 7 rfl b cl]
  exact eight_chunks (fun k => y (ix3 b cl k) * y (ix3 b cl k))

/-- The third running total with the last chunk's sum added: the inner product of the two (batch, channel) vectors. -/
theorem total_prod (x y : Vec Ideal S8x16x16384 .f32) (b : Fin 8) (cl : Fin 16) :
    k0_pay22 (F := Ideal) (k0_pay17 (k0_pay8 (View.ld x r0_0) (View.ld y r0_0) (View.ld x r0_1) (View.ld y r0_1))
          (k0_pay9 (View.ld x r0_2)) (View.ld y r0_2) (View.ld x r0_3) (View.ld y r0_3) (View.ld x r0_4) (View.ld y r0_4))
        (View.ld x r0_5) (View.ld y r0_5) (View.ld x r0_6) (View.ld y r0_6) (ix2 b cl)
      + multiReduction (F := Ideal) .add [2] S8x16 (k0_pay27 (View.ld x r0_7) (View.ld y r0_7)) 0x00000000#32
          reduces_S8x16x2048_S8x16 (.inl rfl) rfl (ix2 b cl)
      = inner (fun k : Fin 16384 => x (ix3 b cl k)) (fun k : Fin 16384 => y (ix3 b cl k)) := by
  simp only [k0_pay22, k0_pay17, k0_pay8, k0_pay9, k0_pay27, k0_pay2, k0_pay3, k0_pay4, k0_pay5, k0_pay10, k0_pay11, k0_pay12,
    k0_pay13, k0_pay14, k0_pay18, k0_pay19, k0_pay20, k0_pay21, k0_pay23, k0_pay24, shapeCast_self, addf_apply, broadcast_apply]
  rw [chunk_ld x y 0 inb_S8x16x16384_S8x16x2048_0_0_0 0 rfl b cl,
    chunk_ld x y 2048 inb_S8x16x16384_S8x16x2048_0_0_2048 1 rfl b cl,
    chunk_ld x y 4096 inb_S8x16x16384_S8x16x2048_0_0_4096 2 rfl b cl,
    chunk_ld x y 6144 inb_S8x16x16384_S8x16x2048_0_0_6144 3 rfl b cl,
    chunk_ld x y 8192 inb_S8x16x16384_S8x16x2048_0_0_8192 4 rfl b cl,
    chunk_ld x y 10240 inb_S8x16x16384_S8x16x2048_0_0_10240 5 rfl b cl,
    chunk_ld x y 12288 inb_S8x16x16384_S8x16x2048_0_0_12288 6 rfl b cl,
    chunk_ld x y 14336 inb_S8x16x16384_S8x16x2048_0_0_14336 7 rfl b cl]
  exact eight_chunks (fun k => x (ix3 b cl k) * y (ix3 b cl k))

/-- THE BLOCK AT AN INDEX: what the body stores at (channel, batch) of its [16, 8] output block is the distance of the
    cosine of the two (batch, channel) vectors of its input blocks — inner product times the reciprocal root of the
    product of the energies — scaled by 2^-14. -/
theorem block_apply (x0 x1 : Vec Ideal S8x16x16384 .f32) (cl : Fin 16) (b : Fin 8) :
    out0_2 x0 x1 (ix2 cl b)
      = gap (cosProd (fun k : Fin 16384 => x0 (ix3 b cl k)) (fun k : Fin 16384 => x1 (ix3 b cl k)))
          * Ideal.ofBits .f32 0x38800000#32 := by
  unfold out0_2
  rw [View.canon_unit_zero (by funext a; match a with | ⟨0, _⟩ => rfl | ⟨1, _⟩ => rfl)]
  unfold k0_pay1
  rw [transpose_apply [1, 0] _ transposes_S8x16_p1_0_S16x8 (ix2 cl b) (ix2 b cl)
    (by intro a; match a with | ⟨0, _⟩ => rfl | ⟨1, _⟩ => rfl)]
  simp only [mulf_apply, subf_apply, maximumf_apply, addf_apply, broadcast_apply, sqrt_at, rsqrt_at]
  rw [total_sq0 x0 b cl, total_sq1 x1 b cl, total_prod x0 x1 b cl]
  rfl

end Cert.KernelIdeal.Block

end
-- ==== Proof.Whole.lean ====
/-
  The kernel's [256, 8] array after the run, as one function of the two [8, 256, 16384] arrays it reads.

  The grid has 16 points; point t reads channels 16 t … 16 t + 15 of both inputs (all batches, all positions) and writes
  rows 16 t … 16 t + 15 of the [256, 8] output. By the block read at an index, the entry at (channel, batch) of what
  point t writes is the scaled distance of the cosine of the two (batch, channel) vectors; the 16 row blocks tile the
  output (row r lies in block r / 16), so the whole array is that one function.
-/
import proofs.«135004_j4492535792361_2_alg».proof.Proof.Gen.KernelIdeal.Frame
import proofs.«135004_j4492535792361_2_alg».proof.Proof.Block
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.LibCosine
open Idealize.ShloMosaic.Pipeline (Dat)

variable (m : (ℓ : Loc nD τ sig) → Buf (Elt Ideal) ℓ)

/-- The scaled distance of the cosine of the (batch, channel) vectors of two [8, 256, 16384] arrays, laid out as
    [256, 8]: entry (channel, batch). -/
def G (X Y : S8x256x16384.Idx → Elt Ideal .f32) : S256x8.Idx → Elt Ideal .f32 := fun i =>
  gap (cosProd (fun k : Fin 16384 => X (ix3 (⟨(i 1).val, idx2_lt1 i⟩ : Fin 8) (⟨(i 0).val, idx2_lt0 i⟩ : Fin 256) k))
               (fun k : Fin 16384 => Y (ix3 (⟨(i 1).val, idx2_lt1 i⟩ : Fin 8) (⟨(i 0).val, idx2_lt0 i⟩ : Fin 256) k)))
    * Ideal.ofBits .f32 0x38800000#32

/-- The printed index maps over the grid: both inputs' blocks sit at batch block 0, position block 0 and the channel
    block of the output's row block; the output's column block is 0 and its row block is below 16. -/
theorem idx_facts : ∀ t : Fin cfg0.N, win0_0.index t (0 : Fin 3) = 0
    ∧ win0_0.index t (1 : Fin 3) = win0_2.index t (0 : Fin 2)
    ∧ win0_0.index t (2 : Fin 3) = 0
    ∧ win0_1.index t (0 : Fin 3) = 0
    ∧ win0_1.index t (1 : Fin 3) = win0_2.index t (0 : Fin 2)
    ∧ win0_1.index t (2 : Fin 3) = 0
    ∧ win0_2.index t (1 : Fin 2) = 0
    ∧ win0_2.index t (0 : Fin 2) ≤ 15 :=
  (by decide +kernel : ∀ t : Fin grid0.N, _)

/-- Every row block of the output is some point's. -/
theorem idx_onto : ∀ q : Fin 16, ∃ t : Fin cfg0.N, win0_2.index t = ![q.val, 0] :=
  (by decide +kernel : ∀ q : Fin 16, ∃ t : Fin grid0.N, win0_2.index t = ![q.val, 0])

/-- The first input's block at point t, at (batch, channel, position): the array at channel 16 (row block) + channel. -/
theorem iblk0_apply (c : Dev nD) (t : Fin cfg0.N) (b : Fin 8) (cl : Fin 16) (k : Fin 16384) (q : Fin 256)
    (hq : q.val = win0_2.index t (0 : Fin 2) * 16 + cl.val) :
    (iblk m c 0 t : Vec Ideal S8x16x16384 .f32) (ix3 b cl k)
      = (V m c main_v0 : S8x256x16384.Idx → Elt Ideal .f32) (ix3 b q k) := by
  obtain ⟨e0, e1, e2, -, -, -, -, -⟩ := idx_facts t
  unfold iblk
  rw [View.read_apply]
  show V m c main_v0 _ = V m c main_v0 _
  congr 1
  funext a
  apply Fin.ext
  match a with
  | ⟨0, _⟩ => show win0_0.index t (0 : Fin 3) * 8 + 1 * b.val = b.val; omega
  | ⟨1, _⟩ => show win0_0.index t (1 : Fin 3) * 16 + 1 * cl.val = q.val; omega
  | ⟨2, _⟩ => show win0_0.index t (2 : Fin 3) * 16384 + 1 * k.val = k.val; omega

/-- The second input's block at point t, likewise. -/
theorem iblk1_apply (c : Dev nD) (t : Fin cfg0.N) (b : Fin 8) (cl : Fin 16) (k : Fin 16384) (q : Fin 256)
    (hq : q.val = win0_2.index t (0 : Fin 2) * 16 + cl.val) :
    (iblk m c 1 t : Vec Ideal S8x16x16384 .f32) (ix3 b cl k)
      = (V m c main_v1 : S8x256x16384.Idx → Elt Ideal .f32) (ix3 b q k) := by
  obtain ⟨-, -, -, e0, e1, e2, -, -⟩ := idx_facts t
  unfold iblk
  rw [View.read_apply]
  show V m c main_v1 _ = V m c main_v1 _
  congr 1
  funext a
  apply Fin.ext
  match a with
  | ⟨0, _⟩ => show win0_1.index t (0 : Fin 3) * 8 + 1 * b.val = b.val; omega
  | ⟨1, _⟩ => show win0_1.index t (1 : Fin 3) * 16 + 1 * cl.val = q.val; omega
  | ⟨2, _⟩ => show win0_1.index t (2 : Fin 3) * 16384 + 1 * k.val = k.val; omega

/-- WHAT POINT t WRITES BACK is block t of `G` of the two arrays as the region finds them. -/
theorem flushed_eq (c : Dev nD) (t : Fin cfg0.N) :
    (dats m 0 c).flushed 2 t
      = ((cfg0.win 2).blk t).view.read (Elt Ideal) (G (V m c main_v0) (V m c main_v1)) := by
  show (cfg0.win 2).cut (grid0.coords t) ((dats m 0 c).after 2 t) = _
  rw [after0_2]
  obtain ⟨-, -, -, -, -, -, e6, e7⟩ := idx_facts t
  funext j
  obtain ⟨cl, b, rfl⟩ : ∃ (cl : Fin 16) (b : Fin 8), j = ix2 cl b := ⟨j 0, j 1, eq_ix2 j⟩
  show out0_2 (iblk m c 0 t) (iblk m c 1 t) (ix2 cl b)
    = G (V m c main_v0) (V m c main_v1) (((cfg0.win 2).blk t).view.emb (ix2 cl b))
  refine (Block.block_apply (iblk m c 0 t) (iblk m c 1 t) cl b).trans ?_
  unfold G
  have hb : (((cfg0.win 2).blk t).view.emb (ix2 cl b) 1).val = b.val := by
    show win0_2.index t (1 : Fin 2) * 8 + 1 * b.val = b.val; omega
  have hq : (((cfg0.win 2).blk t).view.emb (ix2 cl b) 0).val = win0_2.index t (0 : Fin 2) * 16 + cl.val := by
    show win0_2.index t (0 : Fin 2) * 16 + 1 * cl.val = _; omega
  have hX : (fun k : Fin 16384 => (iblk m c 0 t : Vec Ideal S8x16x16384 .f32) (ix3 b cl k))
      = fun k : Fin 16384 => (V m c main_v0 : S8x256x16384.Idx → Elt Ideal .f32)
          (ix3 (⟨(((cfg0.win 2).blk t).view.emb (ix2 cl b) 1).val, idx2_lt1 _⟩ : Fin 8)
               (⟨(((cfg0.win 2).blk t).view.emb (ix2 cl b) 0).val, idx2_lt0 _⟩ : Fin 256) k) := by
    funext k
    rw [iblk0_apply m c t b cl k ⟨_, idx2_lt0 (((cfg0.win 2).blk t).view.emb (ix2 cl b))⟩ hq]
    congr 1
    funext a
    apply Fin.ext
    match a with
    | ⟨0, _⟩ => exact hb.symm
    | ⟨1, _⟩ => rfl
    | ⟨2, _⟩ => rfl
  have hY : (fun k : Fin 16384 => (iblk m c 1 t : Vec Ideal S8x16x16384 .f32) (ix3 b cl k))
      = fun k : Fin 16384 => (V m c main_v1 : S8x256x16384.Idx → Elt Ideal .f32)
          (ix3 (⟨(((cfg0.win 2).blk t).view.emb (ix2 cl b) 1).val, idx2_lt1 _⟩ : Fin 8)
               (⟨(((cfg0.win 2).blk t).view.emb (ix2 cl b) 0).val, idx2_lt0 _⟩ : Fin 256) k) := by
    funext k
    rw [iblk1_apply m c t b cl k ⟨_, idx2_lt0 (((cfg0.win 2).blk t).view.emb (ix2 cl b))⟩ hq]
    congr 1
    funext a
    apply Fin.ext
    match a with
    | ⟨0, _⟩ => exact hb.symm
    | ⟨1, _⟩ => rfl
    | ⟨2, _⟩ => rfl
  rw [hX, hY]

/-- An index of the output is in point t's block iff each coordinate is in the block's range on its axis. -/
theorem mem_blk (t : Fin cfg0.N) (i : S256x8.Idx) :
    i ∈ ((cfg0.win 2).blk t).view.set ↔ ∀ a : Fin 2, win0_2.index t a * S16x8.size a ≤ (i a).val
      ∧ (i a).val < win0_2.index t a * S16x8.size a + S16x8.size a := by
  show i ∈ ((View.whole main_v2).slice (win0_2.rect t)).set ↔ _
  rw [View.set_slice_whole, Rect.mem_set_unit]
  exact Iff.rfl

/-- Every index of the output is in some point's block: row r is in row block r / 16. -/
theorem cover (i : S256x8.Idx) :
    ∃ t : Fin cfg0.N, (cfg0.win 2).flush t = true ∧ i ∈ ((cfg0.win 2).blk t).view.set := by
  have hi0 : (i 0).val < 256 := (i 0).isLt
  have hi1 : (i 1).val < 8 := (i 1).isLt
  obtain ⟨t, ht⟩ := idx_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 8 ≤ (i 1).val ∧ (i 1).val < win0_2.index t (1 : Fin 2) * 8 + 8; omega

/-- THE ARRAY after the region: `G` of the two arrays the region reads. -/
theorem final (c : Dev nD) : (dats m 0 c).arrAt 2 cfg0.N = G (V m c main_v0) (V m c main_v1) :=
  (dats m 0 c).arrAt_eq_of_cover 2 (G (V m c main_v0) (V m c main_v1)) (fun t _ => flushed_eq m c t) cover

end Cert.KernelIdeal.Whole

end
-- ==== Proof.Tail.lean ====
/-
  The kernel's program around its region, on the host.

  Before the region each [8, 256, 128, 128] argument is laid out as [8, 256, 16384]: that is what the region's two input
  windows read. After it the [256, 8] output is transposed to [8, 256] and reduced by the shared last three operations
  (sum over channels, sum over batches, quotient by 8).
-/
import proofs.«135004_j4492535792361_2_alg».proof.Proof.Gen.KernelIdeal.Frame
import proofs.«135004_j4492535792361_2_alg».proof.Proof.MeanTail
import Idealize.ShloMosaic.Lib.StableHlo.Run
import Idealize.ShloMosaic.Lib.Pipeline.Value

noncomputable section

namespace Cert.KernelIdeal.Tail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The region finds the first argument laid out as [8, 256, 16384]. -/
theorem V_main_v0 (c : Dev nD) :
    (V m c main_v0 : S8x256x16384.Idx → Elt Ideal .f32)
      = shapeCast S8x256x16384 (m ((c : Thread nD τ).loc main_arg0)) shapeCasts_S8x256x128x128_S8x256x16384 := by
  show StableHlo.after hostOps0 (fun b => m (c, b)) (Proc.devRef .tc main_v0) = _
  after_results
  rfl

/-- The region finds the second argument laid out as [8, 256, 16384]. -/
theorem V_main_v1 (c : Dev nD) :
    (V m c main_v1 : S8x256x16384.Idx → Elt Ideal .f32)
      = shapeCast S8x256x16384 (m ((c : Thread nD τ).loc main_arg1)) shapeCasts_S8x256x128x128_S8x256x16384 := by
  show StableHlo.after hostOps0 (fun b => m (c, b)) (Proc.devRef .tc main_v1) = _
  after_results
  rfl

/-- The result buffer after the host operations that follow the region: the shared mean of the transposed output. -/
theorem result (c : Dev nD) :
    Pipeline.afterTail₀ cfgs (dats m) 0 (V0 m) [hostOps1] c main_v6
      = Cert.MeanTail.mean reducesTo_S8x256_S8_d1 reducesTo_S8_S_d0 h_S_
          (transpose S8x256 [1, 0] ((dats m 0 c).arrAt 2 cfg0.N) transposes_S256x8_S8x256_1_0) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  rw [e]
  rfl

end Cert.KernelIdeal.Tail

end
-- ==== Proof.RefEntry.lean ====
/-
  The reference's per-channel value, read at (batch, channel).

  With both inputs laid out as [8, 256, 16384], the reference divides every entry of a (batch, channel) vector by the
  vector's norm — the square root of its energy — multiplies the two normalised vectors entry by entry and sums over the
  positions: the cosine with every entry divided first. The value at (batch, channel) is the distance
  sqrt (max (2 - 2 cos cos) 0) of that cosine, divided by 16384.
-/
import proofs.«135004_j4492535792361_2_alg».proof.Proof.Gen.ReferenceIdeal.Read
import proofs.«135004_j4492535792361_2_alg».proof.Proof.LibCosine
import Idealize.ShloMosaic.Lib.ValueIdx
import Idealize.ShloMosaic.Lib.Pipeline.Value
import Idealize.ShloMosaic.PureOps.Ideal.Laws

noncomputable section

open scoped BigOperators

namespace Cert.ReferenceIdeal.Entry

open Cert.ReferenceIdeal Cert.ReferenceIdeal.Gen Cert.ReferenceIdeal.Read Idealize.ShloMosaic Idealize.ShloMosaic.ValueIdx Cert.LibCosine

/-! ### Index equations over literal coordinates -/

private theorem idx_v9 (b : Fin 8) (c : Fin 256) (k : Fin 16384) : idx_main_v9 (ix2 b c) k = ix3 b c k :=
  funext fun a => Fin.ext (by match a with | ⟨0, _⟩ => rfl | ⟨1, _⟩ => rfl | ⟨2, _⟩ => rfl)

private theorem idx_v3 (b : Fin 8) (c : Fin 256) (k : Fin 16384) : idx_main_v3 (ix3 b c k) = ix3 b c (0 : Fin 1) :=
  funext fun a => Fin.ext (by match a with | ⟨0, _⟩ => rfl | ⟨1, _⟩ => rfl | ⟨2, _⟩ => rfl)

private theorem idx_v6 (b : Fin 8) (c : Fin 256) (k : Fin 16384) : idx_main_v6 (ix3 b c k) = ix3 b c (0 : Fin 1) :=
  funext fun a => Fin.ext (by match a with | ⟨0, _⟩ => rfl | ⟨1, _⟩ => rfl | ⟨2, _⟩ => rfl)

private theorem idx_c0v2 (b : Fin 8) (c : Fin 256) : idx_main_call0_v2 (ix3 b c (0 : Fin 1)) = ix2 b c :=
  funext fun a => Fin.ext (by match a with | ⟨0, _⟩ => rfl | ⟨1, _⟩ => rfl)

private theorem idx_c1v2 (b : Fin 8) (c : Fin 256) : idx_main_call1_v2 (ix3 b c (0 : Fin 1)) = ix2 b c :=
  funext fun a => Fin.ext (by match a with | ⟨0, _⟩ => rfl | ⟨1, _⟩ => rfl)

private theorem idx_c0v1 (b : Fin 8) (c : Fin 256) (k : Fin 16384) : idx_main_call0_v1 (ix2 b c) k = ix3 b c k :=
  funext fun a => Fin.ext (by match a with | ⟨0, _⟩ => rfl | ⟨1, _⟩ => rfl | ⟨2, _⟩ => rfl)

private theorem idx_c1v1 (b : Fin 8) (c : Fin 256) (k : Fin 16384) : idx_main_call1_v1 (ix2 b c) k = ix3 b c k :=
  funext fun a => Fin.ext (by match a with | ⟨0, _⟩ => rfl | ⟨1, _⟩ => rfl | ⟨2, _⟩ => rfl)

/-! ### The two norms, the two normalised entries, and the cosine -/

/-- The first vector's norm at (batch, channel): the square root of its energy. -/
private theorem norm0 (x0 : (⟨S8x256x128x128, .f32⟩ : BufTy).Contents (Elt Ideal)) (b : Fin 8) (c : Fin 256) :
    val_main_v2 (F := Ideal) x0 (ix3 b c (0 : Fin 1))
      = Ideal.sqrt (energy (fun k : Fin 16384 => val_main_v0 (F := Ideal) x0 (ix3 b c k))) := by
  rw [val_main_v2_apply, Ideal.hostUnary_sqrt_def, val_main_call0_v2_apply, idx_c0v2, val_main_call0_v1_apply,
    val_main_call0_cst_apply, Ideal.ofBits_def, Ideal.ofBits_zero_f32, zero_add]
  unfold energy
  refine congrArg Ideal.sqrt (Finset.sum_congr rfl fun k _ => ?_)
  rw [idx_c0v1, val_main_call0_v0_apply, Ideal.mulf_def]

/-- The second vector's norm at (batch, channel): the square root of its energy. -/
private theorem norm1 (x1 : (⟨S8x256x128x128, .f32⟩ : BufTy).Contents (Elt Ideal)) (b : Fin 8) (c : Fin 256) :
    val_main_v5 (F := Ideal) x1 (ix3 b c (0 : Fin 1))
      = Ideal.sqrt (energy (fun k : Fin 16384 => val_main_v1 (F := Ideal) x1 (ix3 b c k))) := by
  rw [val_main_v5_apply, Ideal.hostUnary_sqrt_def, val_main_call1_v2_apply, idx_c1v2, val_main_call1_v1_apply,
    val_main_call1_cst_apply, Ideal.ofBits_def, Ideal.ofBits_zero_f32, zero_add]
  unfold energy
  refine congrArg Ideal.sqrt (Finset.sum_congr rfl fun k _ => ?_)
  rw [idx_c1v1, val_main_call1_v0_apply, Ideal.mulf_def]

/-- The sum over the positions of the products of the normalised entries is the cosine, every entry divided first. -/
private theorem cos_at (x0 x1 : (⟨S8x256x128x128, .f32⟩ : BufTy).Contents (Elt Ideal)) (b : Fin 8) (c : Fin 256) :
    val_main_v9 (F := Ideal) x0 x1 (ix2 b c)
      = cosUnit (fun k : Fin 16384 => val_main_v0 (F := Ideal) x0 (ix3 b c k))
                (fun k : Fin 16384 => val_main_v1 (F := Ideal) x1 (ix3 b c k)) := by
  rw [val_main_v9_apply, val_main_cst_apply, Ideal.ofBits_def, Ideal.ofBits_zero_f32, zero_add]
  unfold cosUnit
  refine Finset.sum_congr rfl fun k _ => ?_
  rw [idx_v9, val_main_v8_apply, Ideal.mulf_def, val_main_v4_apply, Ideal.hostDivf_def, val_main_v3_apply, idx_v3, norm0,
    val_main_v7_apply, Ideal.hostDivf_def, val_main_v6_apply, idx_v6, norm1]

/-- The reference's [8, 256] array before its final sums, at (batch, channel): the distance of the cosine of the two
    (batch, channel) vectors, each entry divided by its vector's norm first, over 16384. -/
theorem entry (x0 x1 : (⟨S8x256x128x128, .f32⟩ : BufTy).Contents (Elt Ideal)) (b : Fin 8) (c : Fin 256) :
    val_main_v19 (F := Ideal) x0 x1 (ix2 b c)
      = Ideal.div (gap (cosUnit (fun k : Fin 16384 => val_main_v0 (F := Ideal) x0 (ix3 b c k))
                                (fun k : Fin 16384 => val_main_v1 (F := Ideal) x1 (ix3 b c k))))
          (Ideal.ofBits .f32 0x46800000#32) := by
  rw [val_main_v19_apply, Ideal.hostDivf_def, val_main_v18_apply, val_main_cst_3_apply, Ideal.ofBits_def,
    val_main_v17_apply, Ideal.hostUnary_sqrt_def, val_main_v16_apply, Ideal.maximumf_def,
    val_main_v15_apply, val_main_cst_2_apply, Ideal.ofBits_def,
    val_main_v14_apply, Ideal.subf_def, val_main_v13_apply, val_main_cst_1_apply, Ideal.ofBits_def,
    val_main_v12_apply, Ideal.mulf_def, val_main_v11_apply, Ideal.mulf_def,
    val_main_v10_apply, val_main_cst_0_apply, Ideal.ofBits_def, cos_at]
  rfl

end Cert.ReferenceIdeal.Entry

end
-- ==== Proof.Bridge.lean ====
/-
  The two [8, 256] arrays are one.

  With X, Y the two arguments laid out as [8, 256, 16384]: the kernel's [256, 8] array, transposed, holds at (batch,
  channel) the distance of the cosine "inner product times the reciprocal root of the product of the energies", scaled
  by 2^-14; the reference's [8, 256] array holds the distance of the cosine "every entry divided by its vector's norm
  first", divided by 16384. When every entry is a real number and every (batch, channel) energy is positive the two
  cosines are the same real number, and scaling by 2^-14 is dividing by 16384.
-/
import proofs.«135004_j4492535792361_2_alg».proof.Proof.Whole
import proofs.«135004_j4492535792361_2_alg».proof.Proof.RefEntry
import proofs.«135004_j4492535792361_2_alg».proof.Proof.LibCosine
import proofs.«135004_j4492535792361_2_alg».proof.Proof.LibReal
import Idealize.ShloMosaic.Lib.ValueIdx
import Idealize.ShloMosaic.Lib.Pipeline.Value

noncomputable section

open scoped BigOperators

namespace Cert.Bridge

open Idealize.ShloMosaic Idealize.ShloMosaic.ValueIdx Cert.LibCosine Cert.LibReal
open Cert.ReferenceIdeal Cert.ReferenceIdeal.Read

/-- The kernel's array of per-channel distances, transposed to [8, 256], is the reference's. -/
theorem arrays_eq (x0 x1 : (⟨S8x256x128x128, .f32⟩ : BufTy).Contents (Elt Ideal))
    (hc : S8x256x128x128.ShapeCasts S8x256x16384)
    (ht : Cert.KernelIdeal.S256x8.Transposes [1, 0] Cert.KernelIdeal.S8x256)
    (hx0 : ∀ i, IsReal (x0 i)) (hx1 : ∀ i, IsReal (x1 i))
    (hp0 : ∀ (b : Fin 8) (c : Fin 256), 0 < ∑ k : Fin 16384,
        shapeCast S8x256x16384 x0 hc (ix3 b c k) * shapeCast S8x256x16384 x0 hc (ix3 b c k))
    (hp1 : ∀ (b : Fin 8) (c : Fin 256), 0 < ∑ k : Fin 16384,
        shapeCast S8x256x16384 x1 hc (ix3 b c k) * shapeCast S8x256x16384 x1 hc (ix3 b c k)) :
    transpose Cert.KernelIdeal.S8x256 [1, 0]
        (Cert.KernelIdeal.Whole.G (shapeCast S8x256x16384 x0 hc) (shapeCast S8x256x16384 x1 hc)) ht
      = val_main_v19 (F := Ideal) x0 x1 := by
  funext i
  obtain ⟨b, c, rfl⟩ : ∃ (b : Fin 8) (c : Fin 256), i = ix2 b c := ⟨i 0, i 1, eq_ix2 i⟩
  rw [transpose_apply [1, 0] _ ht (ix2 b c) (ix2 c b) (by intro a; match a with | ⟨0, _⟩ => rfl | ⟨1, _⟩ => rfl)]
  rw [Cert.ReferenceIdeal.Entry.entry x0 x1 b c]
  have hX : ∀ k : Fin 16384, IsReal (val_main_v0 (F := Ideal) x0 (ix3 b c k)) := fun k => by
    rw [val_main_v0_apply]; exact hx0 _
  have hY : ∀ k : Fin 16384, IsReal (val_main_v1 (F := Ideal) x1 (ix3 b c k)) := fun k => by
    rw [val_main_v1_apply]; exact hx1 _
  have hxx : 0 < energy (fun k : Fin 16384 => val_main_v0 (F := Ideal) x0 (ix3 b c k)) := hp0 b c
  have hyy : 0 < energy (fun k : Fin 16384 => val_main_v1 (F := Ideal) x1 (ix3 b c k)) := hp1 b c
  rw [← cosProd_eq_cosUnit _ _ hX hY hxx hyy, ← scale_eq_div]
  rfl

end Cert.Bridge

end
-- ==== Proof.lean ====
/-
  The affinity distance of two feature maps: a streaming kernel against its reference, on the extended reals.

  Both programs lay each [8, 256, 128, 128] input out as [8, 256, 16384] — a vector of 16384 positions per (batch,
  channel) — and both end with the same three operations on an [8, 256] array of per-channel distances: the sum over the
  channels, the sum over the batches, the quotient by 8.

  The per-channel distance is sqrt (max (2 - 2 cos cos) 0) / 16384 of the cosine of the two (batch, channel) vectors.
  The reference divides every entry by its vector's norm and sums the products of the normalised entries. The kernel never
  normalises: it walks the positions in 8 chunks of 2048, keeps three running totals (the two energies and the inner
  product), and forms inner product times the reciprocal root of the product of the energies; it scales by 2^-14 instead of
  dividing by 16384, and writes a [256, 8] array that the host transposes.

  The two agree where the reference's division is an ordinary one: every entry a real number and every (batch, channel)
  energy positive — the precondition. There the running totals are the sums over all 16384 positions (8 consecutive tiles
  of 2048), sqrt (E(x) E(y)) = sqrt E(x) sqrt E(y) makes the two cosines one real number, and 2^-14 is 1 / 16384.
  At a zero energy they would differ (0 times the reciprocal root of 0 is 0 on the extended reals, 0 / 0 is not), which
  is why the precondition asks for positive energies.

  The frames are the generated ones (the reference's is its generated run with the result dropped); nothing was rewritten
  by the idealization, so that conjunct is trivial.
-/
import proofs.«135004_j4492535792361_2_alg».proof.Defs
import proofs.«135004_j4492535792361_2_alg».proof.Proof.Gen.Kernel
import proofs.«135004_j4492535792361_2_alg».proof.Proof.Gen.Kernel.Skeleton
import proofs.«135004_j4492535792361_2_alg».proof.Proof.Gen.Kernel.Launch
import proofs.«135004_j4492535792361_2_alg».proof.Proof.Gen.Kernel.Points
import proofs.«135004_j4492535792361_2_alg».proof.Proof.Gen.Kernel.Frame
import proofs.«135004_j4492535792361_2_alg».proof.Proof.Gen.KernelIdeal
import proofs.«135004_j4492535792361_2_alg».proof.Proof.Gen.KernelIdeal.Skeleton
import proofs.«135004_j4492535792361_2_alg».proof.Proof.Gen.KernelIdeal.Launch
import proofs.«135004_j4492535792361_2_alg».proof.Proof.Gen.KernelIdeal.Points
import proofs.«135004_j4492535792361_2_alg».proof.Proof.Gen.KernelIdeal.Frame
import proofs.«135004_j4492535792361_2_alg».proof.Proof.Gen.ReferenceIdeal
import proofs.«135004_j4492535792361_2_alg».proof.Proof.Gen.ReferenceIdeal.Run
import proofs.«135004_j4492535792361_2_alg».proof.Proof.Gen.ReferenceIdeal.Read
import proofs.«135004_j4492535792361_2_alg».proof.Proof.Gen.Pre_finite_inputs
import proofs.«135004_j4492535792361_2_alg».proof.Proof.MeanTail
import proofs.«135004_j4492535792361_2_alg».proof.Proof.Domain
import proofs.«135004_j4492535792361_2_alg».proof.Proof.Whole
import proofs.«135004_j4492535792361_2_alg».proof.Proof.Tail
import proofs.«135004_j4492535792361_2_alg».proof.Proof.Bridge
import Idealize.ShloMosaic.Adequacy
import Idealize.ShloMosaic.Init

noncomputable section

namespace Cert.Proof

open Idealize.ShloMosaic Idealize.ShloMosaic.TcCoe Idealize.SL.Sem

/-- The common result: the mean over the batches of the per-batch totals of the reference's [8, 256] array of
    per-channel distances, as a function of the two argument arrays. -/
def result (x0 x1 : (⟨Cert.ReferenceIdeal.S8x256x128x128, .f32⟩ : BufTy).Contents (Elt Ideal)) :
    FVec Ideal Cert.MeanTail.S_ .f32 :=
  Cert.MeanTail.mean Cert.KernelIdeal.Gen.reducesTo_S8x256_S8_d1 Cert.KernelIdeal.Gen.reducesTo_S8_S_d0
    Cert.KernelIdeal.Gen.h_S_ (Cert.ReferenceIdeal.Read.val_main_v19 (F := Ideal) x0 x1)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelRun

open Cert.KernelIdeal Cert.KernelIdeal.Gen

/-- The kernel's run under the precondition: the result buffer ends at the common result of the arguments, the arguments
    unchanged. The region leaves the [256, 8] array of scaled distances; transposed it is the reference's [8, 256] array,
    and the host operations after the region are the shared mean. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v6)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v6 (Pipeline.mem_restRefs_of main_v6 (by decide) (by decide))).trans ?_
    rw [Cert.KernelIdeal.Tail.result m c, Cert.KernelIdeal.Whole.final m c, Cert.KernelIdeal.Tail.V_main_v0 m c,
      Cert.KernelIdeal.Tail.V_main_v1 m c]
    obtain ⟨hx0, hx1, hp0, hp1⟩ := Cert.Domain.of_pre _ _ (hpre c) shapeCasts_S8x256x128x128_S8x256x16384
    exact congrArg (Cert.MeanTail.mean _ _ _) (Cert.Bridge.arrays_eq _ _ _ _ hx0 hx1 hp0 hp1)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end KernelRun

/-- From memories that agree on the arguments both programs end at the common result: the kernel by `kernel_run`, the
    reference by its generated run, whose last three operations are the shared mean of its [8, 256] array. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
